-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S16384x128 .f32) (main_arg1 : FVec F S128x128 .f32) (main_arg2 : FVec F S128 .f32) (main_arg3 : FVec F S128x1 .f32) (main_arg4 : FVec F S1 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_v13 main_v16
-- ==== Kernel.lean ====
abbrev S16384x128 : Shape := ⟨2, ![16384, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S4x2x2048 : Shape := ⟨3, ![4, 2, 2048]⟩
abbrev S16384x1 : Shape := ⟨2, ![16384, 1]⟩
abbrev S2048x128 : Shape := ⟨2, ![2048, 128]⟩
abbrev S1x2x2048 : Shape := ⟨3, ![1, 2, 2048]⟩
abbrev S1x2048 : Shape := ⟨2, ![1, 2048]⟩
abbrev S1x1x2048 : Shape := ⟨3, ![1, 1, 2048]⟩

abbrev nBuf : Space → Nat
  | .hbm => 10
  | .vmem => 10
  | .smem => 0
  | _ => 0

abbrev bufTy : (tb : Table) → Fin (tcTables nBuf tb) → BufTy
  | .hbm, ⟨0, _⟩ => ⟨S16384x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S1x128, .f32⟩
  | .hbm, ⟨6, _⟩ => ⟨S1x128, .f32⟩
  | .hbm, ⟨7, _⟩ => ⟨S1x1, .f32⟩
  | .hbm, ⟨8, _⟩ => ⟨S4x2x2048, .f32⟩
  | .hbm, ⟨9, _⟩ => ⟨S16384x1, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x1, .f32⟩
  | .local _ .vmem, ⟨8, _⟩ => ⟨S1x2x2048, .f32⟩
  | .local _ .vmem, ⟨9, _⟩ => ⟨S1x2x2048, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  shapeCasts_S128x1_S1x128 : S128x1.ShapeCasts S1x128
  shapeCasts_S1_S1x1 : S1.ShapeCasts S1x1
  shapeCasts_S4x2x2048_S16384x1 : S4x2x2048.ShapeCasts S16384x1
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x128_S2048x128_0_0 : ∀ a, (![0, 0] : Fin 2 → Nat) a + S2048x128.size a ≤ S2048x128.size a
  h_S2048x128 : 0 < S2048x128.numel
  broadcasts_S1x128_S2048x128 : S1x128.Broadcasts S2048x128
  broadcasts_S1x1_S1x2048 : S1x1.Broadcasts S1x2048
  inb_S1x2x2048_S1x1x2048_0_0_0 : ∀ a, (![0, 0, 0] : Fin 3 → Nat) a + S1x1x2048.size a ≤ S1x2x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x2x2048_S1x1x2048_0_1_0 : ∀ a, (![0, 1, 0] : Fin 3 → Nat) a + S1x1x2048.size a ≤ S1x2x2048.size a
  dot_S2048x128_S128x128_S2048x128_1_0_0_1_n_n_wf : DotDims.WF S2048x128 S128x128 S2048x128 [1] [0] [0] [1] [] []
  dot_S1x128_S2048x128_S1x2048_1_1_0_0_n_n_wf : DotDims.WF S1x128 S2048x128 S1x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2x2048.size a ≤ S4x2x2048.size a
  hwx0_6 : ∀ i : grid0.Coords, EltTy.bits .f32 = 32 ∨ (Rect.block (s := S4x2x2048) S1x2x2048.size (cc0_transform_6 i) (hinb0_6 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S1x128_S2048x128_S1x2048_1_1_0_0_n_n : DotDims S1x128 S2048x128 S1x2048 where
  lhsContracting := [1]
  rhsContracting := [1]
  lhsNonContracting := [0]
  rhsNonContracting := [0]
  lhsBatch := []
  rhsBatch := []
  wf := dot_S1x128_S2048x128_S1x2048_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x2x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S16384x1 : Shape := ⟨2, ![16384, 1]⟩
abbrev S1x1 : Shape := ⟨2, ![1, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S16384x128, .f32⟩
  | .hbm, ⟨6, _⟩ => ⟨S1x128, .f32⟩
  | .hbm, ⟨7, _⟩ => ⟨S16384x128, .f32⟩
  | .hbm, ⟨8, _⟩ => ⟨S16384x128, .f32⟩
  | .hbm, ⟨9, _⟩ => ⟨S_, .f32⟩
  | .hbm, ⟨10, _⟩ => ⟨S16384x128, .f32⟩
  | .hbm, ⟨11, _⟩ => ⟨S16384x128, .f32⟩
  | .hbm, ⟨12, _⟩ => ⟨S16384x1, .f32⟩
  | .hbm, ⟨13, _⟩ => ⟨S1x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x128_S128x128_S16384x128_1_0_0_1_n_n_wf : DotDims.WF S16384x128 S128x128 S16384x128 [1] [0] [0] [1] [] []
  dot_S16384x128_S128x1_S16384x1_1_0_0_1_n_n_wf : DotDims.WF S16384x128 S128x1 S16384x1 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

class Facts : Prop extends Facts₀ where

variable [Facts]
-- ==== Proof.KernelBody.lean ====
import proofs.«107998_g43258910606027_cont_8to1_b_1695_36_alg».proof.Proof.Gen.Kernel.Launch
import proofs.«107998_g43258910606027_cont_8to1_b_1695_36_alg».proof.Proof.Gen.Kernel.Skeleton
import proofs.«107998_g43258910606027_cont_8to1_b_1695_36_alg».proof.Proof.Gen.Kernel.Points
import Idealize.ShloMosaic.Lib.Pipeline.FrameBody
import Idealize.ShloMosaic.Lib.Ring
import Idealize.ShloMosaic.Lib.Tactic

/-!
# The kernel body at one grid point

The pallas_call walks four grid points. At point `t` its two row windows stage rows
`[(2t)·2048, (2t+1)·2048)` and `[(2t+1)·2048, (2t+2)·2048)` of the one input matrix (both windows
sit on the same array), four further windows stage the weights and biases whole, and the output window
stages slab `t` of the `[4, 2, 2048]` result. The body stores two `[1, 1, 2048]` rows into that slab: row 0
from the first row block, row 1 from the second. This file states what the slab holds after the body as the
overlay of those two stores, proves the body's triple by symbolic execution, and packages the
per-point proof data (what every staging buffer holds after the body, the share of the input matrix
each of the two row windows holds: one half each).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- Core `c`'s buffers at launch, as a valuation. -/
abbrev V₀ (c : Dev nD) : Valuation τ sig (Elt F) := fun b => m ((c : Dev nD), b)

/-- Core `c`'s buffers when the region is entered: the three reshapes of the biases and of the second weight
    have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rX : Rect S2048x128 := Rect.unit (s := S2048x128) ![0, 0] S2048x128.size inb_S2048x128_S2048x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rS : Rect S1x1 := Rect.unit (s := S1x1) ![0, 0] S1x1.size inb_S1x1_S1x1_0_0
abbrev rO0 : Rect S1x2x2048 := Rect.unit (s := S1x2x2048) ![0, 0, 0] S1x1x2048.size inb_S1x2x2048_S1x1x2048_0_0_0
abbrev rO1 : Rect S1x2x2048 := Rect.unit (s := S1x2x2048) ![0, 1, 0] S1x1x2048.size inb_S1x2x2048_S1x1x2048_0_1_0

/-! ## What the body leaves in the output slab -/

/-- The output window's staging buffer after the body, from the six input blocks: its two row stores as pieces,
    the later one first. -/
def outSlab (xa xb : Vec F S2048x128 .f32) (w1 : Vec F S128x128 .f32) (b1 w2 : Vec F S1x128 .f32) (b2 : Vec F S1x1 .f32) :
    Vec F S1x2x2048 .f32 :=
  View.canon [⟨rO1, k0_pay1 (k0_pay6 (View.ld w1 rW) (View.ld b1 rB) (View.ld w2 rB) (View.ld xb rX)) (k0_pay7 (View.ld b2 rS))⟩,
    ⟨rO0, k0_pay5 (View.ld w1 rW) (View.ld b1 rB) (View.ld w2 rB) (View.ld b2 rS) (View.ld xa rX)⟩]

/-- The two row stores tile the slab, so they cover it. -/
theorem coverSlab (p1 p0 : Vec F S1x1x2048 .f32) (y : S1x2x2048.Idx) :
    ∃ pc ∈ ([⟨rO1, p1⟩, ⟨rO0, p0⟩] : List (View.Piece (Elt F) S1x2x2048 .f32)), y ∈ pc.1.set :=
  View.cover_of_tiledL [⟨rO1, p1⟩, ⟨rO0, p0⟩] S1x1x2048.size (by sl_kernel_rfl) y

/-! ## The body's triple -/

set_option maxHeartbeats 2000000 in
/-- The kernel body on whole staging memrefs, the inputs' at read contents and the output's at anything, runs to the
    continuation holding the inputs' as they were and the output's at `outSlab` of the inputs'. -/
theorem sound_kernel (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x1 .f32) (harg6 : arg6.IsWhole)
    (arg7 : Memref sig .tc .vmem S1x2x2048 .f32) (harg7 : arg7.IsWhole)
    (xa xb : Vec F S2048x128 .f32) (w1 : Vec F S128x128 .f32) (b1 w2 : Vec F S1x128 .f32) (b2 : Vec F S1x1 .f32) (K : PUnit → sProp 𝕄) :
    iprop(owns (c : Thread nD τ) arg1 fullShare xa ∗ owns (c : Thread nD τ) arg2 fullShare xb ∗ owns (c : Thread nD τ) arg3 fullShare w1
        ∗ owns (c : Thread nD τ) arg4 fullShare b1 ∗ owns (c : Thread nD τ) arg5 fullShare w2 ∗ owns (c : Thread nD τ) arg6 fullShare b2
        ∗ (∃ d, owns (c : Thread nD τ) arg7 fullShare d)
        ∗ (iprop(owns (c : Thread nD τ) arg1 fullShare xa ∗ owns (c : Thread nD τ) arg2 fullShare xb ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (outSlab xa xb w1 b1 w2 b2)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  exact View.read_writes_eq_canon _ _ _ (coverSlab _ _)

/-! ## The pipeline's proof data -/

/-- The proof data of the one pipeline on core `c`: the arrays as the region finds them; after the body at point `t`
    each input's buffer at its block and the output's at `outSlab` of the input blocks; the invariant the scoped rest
    (nothing: every scoped buffer is a staging buffer); nothing owed; the two row windows each hold one half of the
    input matrix, every other window its array outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outSlab (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) :
    (dats m 0 c).after 6 t = outSlab (iblk m c 0 t) (iblk m c 1 t) (iblk m c 2 t) (iblk m c 3 t) (iblk m c 4 t) (iblk m c 5 t) := by
  dsimp only [dats]

/-- Each input's current staging buffer holds its block at every point, fetched there or not: a window that is not
    fetched again has not moved. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the triple applies; the invariant and the core's
    tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelVals.lean ====
import proofs.«107998_g43258910606027_cont_8to1_b_1695_36_alg».proof.Proof.KernelBody
import Idealize.ShloMosaic.Lib.Pipeline.Frame
import Idealize.ShloMosaic.Lib.Pipeline.Regions

/-!
# The run of the whole program

The program is three reshapes (the two biases and the second weight, as rows), the pallas_call, and one reshape of
the `[4, 2, 2048]` result to `[16384, 1]`. Between these items the core holds every array of the program whole, at
contents this file names: as launched; after the three reshapes; after the pallas_call, which changes only its
result array; after the last reshape. The pallas_call's two row windows read one and the same input matrix:
at its entry that matrix's ownership is cut into two halves, one per window, and at its exit the halves — both
still at the launch contents, an input being never written — are joined again.
-/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents between the items -/

/-- After the three reshapes. -/
abbrev W1 (c : Dev nD) : Valuation τ sig (Elt F) := StableHlo.after hostOps0 (V₀ m c)
/-- What the pallas_call leaves in its result array. -/
abbrev slabs (c : Dev nD) : Buf (Elt F) ((c : Thread nD τ).loc main_call0_v3) := (dats m 0 c).arrAt 6 cfg0.N
/-- After the pallas_call: only its result array has changed. -/
abbrev W2 (c : Dev nD) : Valuation τ sig (Elt F) := Function.update (W1 m c) main_call0_v3 (slabs m c)
/-- After the last reshape. -/
abbrev W3 (c : Dev nD) : Valuation τ sig (Elt F) := StableHlo.after hostOps1 (W2 m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

abbrev hostOps0_W : List (Ref sig .tc) := [main_call0_v0, main_call0_v1, main_call0_v2]
theorem hostOps0_writes : (hostOps0 : List (HloOp τ sig (Elt F))).Forall fun op => op.writes ⊆ (hostOps0_W.map (Proc.devRef (τ := τ) .tc)).toFinset := by
  simp only [List.Forall]; refine ⟨?_, ?_, ?_⟩ <;> (simp only [StableHlo.reshape_writes, StableHlo.TRef.reshape, Finset.singleton_subset_iff, List.mem_toFinset]; exact List.mem_map_of_mem (by decide))
abbrev hostOps1_W : List (Ref sig .tc) := [main_v0]
theorem hostOps1_writes : (hostOps1 : List (HloOp τ sig (Elt F))).Forall fun op => op.writes ⊆ (hostOps1_W.map (Proc.devRef (τ := τ) .tc)).toFinset := by
  simp only [List.Forall]; (simp only [StableHlo.reshape_writes, StableHlo.TRef.reshape, Finset.singleton_subset_iff, List.mem_toFinset]; exact List.mem_map_of_mem (by decide))

theorem W1_of (c : Dev nD) (r : Ref sig .tc) (h : r ∉ hostOps0_W) : W1 m c r = V₀ m c r :=
  StableHlo.after_of_writes_sub hostOps0 _ hostOps0_writes h
theorem W2_of (c : Dev nD) (r : Ref sig .tc) (h : r ∉ ([main_call0_v3] : List (Ref sig .tc))) : W2 m c r = W1 m c r := by
  simp only [W2, Function.update_of_ne (StableHlo.devRef_ne_of_ne (List.ne_of_not_mem_cons h) : (Proc.devRef .tc r : DevRef τ sig) ≠ Proc.devRef .tc main_call0_v3)]
theorem W3_of (c : Dev nD) (r : Ref sig .tc) (h : r ∉ hostOps1_W) : W3 m c r = W2 m c r :=
  StableHlo.after_of_writes_sub hostOps1 _ hostOps1_writes h

/-- An argument array reaches the end as launched: no reshape writes it and the pallas_call changes only its result. -/
theorem W3_arg (c : Dev nD) (r : Ref sig .tc) (h0 : r ∉ hostOps0_W) (h1 : r ∉ ([main_call0_v3] : List (Ref sig .tc))) (h2 : r ∉ hostOps1_W) :
    W3 m c r = m ((c : Thread nD τ).loc r) :=
  (W3_of m c r h2).trans <| (W2_of m c r h1).trans <| (W1_of m c r h0).trans rfl

/-! ## Every array, one by one -/

/-- The core's arrays listed: five arguments, the three reshaped rows, the pallas_call's result, the program's result. -/
theorem held_list (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
        ∗ (((c : Thread nD τ).loc main_arg2) ↦{fullShare} W main_arg2) ∗ (((c : Thread nD τ).loc main_arg3) ↦{fullShare} W main_arg3)
        ∗ (((c : Thread nD τ).loc main_arg4) ↦{fullShare} W main_arg4) ∗ (((c : Thread nD τ).loc main_call0_v0) ↦{fullShare} W main_call0_v0)
        ∗ (((c : Thread nD τ).loc main_call0_v1) ↦{fullShare} W main_call0_v1) ∗ (((c : Thread nD τ).loc main_call0_v2) ↦{fullShare} W main_call0_v2)
        ∗ (((c : Thread nD τ).loc main_call0_v3) ↦{fullShare} W main_call0_v3) ∗ (((c : Thread nD τ).loc main_v0) ↦{fullShare} W main_v0)) := by
  rw [← Pipeline.unscopedBufs_held (Ix := Unit) (Name := ℕ) (U := UR sig nD τ) (Lvl := ℕ) c W]
  unfold unscopedBufs
  exact bigSep_eq_bigSepL_of_eq [main_arg0, main_arg1, main_arg2, main_arg3, main_arg4, main_call0_v0, main_call0_v1, main_call0_v2, main_call0_v3, main_v0] (by decide) (by decide) _

end Cert.Kernel.Hand

end
-- ==== Proof.KernelRun.lean ====
import proofs.«107998_g43258910606027_cont_8to1_b_1695_36_alg».proof.Proof.KernelVals
import Idealize.ShloMosaic.Lib.Pipeline.Frame
import Idealize.ShloMosaic.Lib.Pipeline.Regions

/-!
# The pallas_call as one item of the program, and the run

The pallas_call is entered from every array of the program held whole: its windows' arrays are cut out — the input
matrix, which two windows read, into two halves — and at its exit put back, the halves joined, the result array at what
the write-backs left. With the reshapes before and after it as the other items, the library's theorem for a program
that is a list of items gives the run: every weakly fair execution terminates, nothing faults, and every array ends at
the contents the items leave.
-/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pallas_call's arrays, window by window -/

/-- The arrays the rest of the program holds while the pallas_call runs: the two biases, the second weight and the
    program's result buffer, which no window stages. -/
abbrev restAt (c : Dev nD) (W : Valuation τ sig (Elt F)) : sProp 𝕄 :=
  iprop((((c : Thread nD τ).loc main_arg2) ↦{fullShare} W main_arg2) ∗ (((c : Thread nD τ).loc main_arg3) ↦{fullShare} W main_arg3)
    ∗ (((c : Thread nD τ).loc main_arg4) ↦{fullShare} W main_arg4) ∗ (((c : Thread nD τ).loc main_v0) ↦{fullShare} W main_v0))

/-- The windows' arrays one by one: the two row windows each at one half of the input matrix, the others outright. -/
theorem arrays_list (c : Dev nD) (Fs : (w : Fin cfg0.W) → Buf (Elt F) ((cfg0.win w).arr.view.loc (c : Thread nD τ))) :
    ((dats m 0 c).arrays Fs : sProp 𝕄)
      = iprop((((c : Thread nD τ).loc main_arg0) ↦{fullShare.left} Fs 0) ∗ (((c : Thread nD τ).loc main_arg0) ↦{fullShare.right} Fs 1)
        ∗ (((c : Thread nD τ).loc main_arg1) ↦{fullShare} Fs 2) ∗ (((c : Thread nD τ).loc main_call0_v0) ↦{fullShare} Fs 3)
        ∗ (((c : Thread nD τ).loc main_call0_v1) ↦{fullShare} Fs 4) ∗ (((c : Thread nD τ).loc main_call0_v2) ↦{fullShare} Fs 5)
        ∗ (((c : Thread nD τ).loc main_call0_v3) ↦{fullShare} Fs 6)) := by
  unfold Pipeline.Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ]
  rfl

/-- ENTRY of the pallas_call: every array held whole is the windows' arrays at their entry contents — the input
    matrix cut into the two row windows' halves — and the rest. -/
theorem entry_split (c : Dev nD) :
    (StableHlo.held (c : Thread nD τ) (Pipeline.ucRefs τ sig) (W1 m c) : sProp 𝕄)
      ⊢ iprop((dats m 0 c).arrays ((dats m 0 c).arrAt · 0) ∗ restAt c (W1 m c)) := by
  rw [held_list, arrays_list]
  have hs := (pointsTo_share (ℓ := (c : Thread nD τ).loc main_arg0) (I := Finset.univ) (f := W1 m c main_arg0) (Val := Elt F) (Ix := Unit) (Name := ℕ) (U := UR sig nD τ) (Lvl := ℕ) (PosShare.mem_left_op_right fullShare)).1
  refine (sep_mono hs .rfl).trans ?_
  iintro ⟨⟨H0l, H0r⟩, H1, H2, H3, H4, H5, H6, H7, H8, H9⟩
  isplitl [H0l H0r H1 H5 H6 H7 H8]
  · isplitl [H0l]; · iexact H0l
    isplitl [H0r]; · iexact H0r
    isplitl [H1]; · iexact H1
    isplitl [H5]; · iexact H5
    isplitl [H6]; · iexact H6
    isplitl [H7]; · iexact H7
    iexact H8
  isplitl [H2]; · iexact H2
  isplitl [H3]; · iexact H3
  isplitl [H4]; · iexact H4
  iexact H9

/-- EXIT of the pallas_call: the input windows' arrays are as at entry (an input is never written), so the two halves
    of the input matrix join; the result array holds what the write-backs left. -/
theorem exit_join (c : Dev nD) :
    iprop((dats m 0 c).arrays ((dats m 0 c).arrAt · cfg0.N) ∗ restAt c (W1 m c))
      ⊢ (StableHlo.held (c : Thread nD τ) (Pipeline.ucRefs τ sig) (W2 m c) : sProp 𝕄) := by
  rw [held_list, arrays_list]
  rw [(dats m 0 c).arrAt_in 0 rfl, (dats m 0 c).arrAt_in 1 rfl, (dats m 0 c).arrAt_in 2 rfl, (dats m 0 c).arrAt_in 3 rfl,
    (dats m 0 c).arrAt_in 4 rfl, (dats m 0 c).arrAt_in 5 rfl]
  rw [W2_of m c main_arg0 (by decide), W2_of m c main_arg1 (by decide), W2_of m c main_arg2 (by decide), W2_of m c main_arg3 (by decide),
    W2_of m c main_arg4 (by decide), W2_of m c main_call0_v0 (by decide), W2_of m c main_call0_v1 (by decide), W2_of m c main_call0_v2 (by decide),
    W2_of m c main_v0 (by decide), show W2 m c main_call0_v3 = slabs m c from Function.update_self ..]
  have hj := (pointsTo_share (ℓ := (c : Thread nD τ).loc main_arg0) (I := Finset.univ) (f := W1 m c main_arg0) (Val := Elt F) (Ix := Unit) (Name := ℕ) (U := UR sig nD τ) (Lvl := ℕ) (PosShare.mem_left_op_right fullShare)).2
  refine BIBase.Entails.trans ?_ (sep_mono hj .rfl)
  iintro ⟨⟨H0l, H0r, H1, H5, H6, H7, H8⟩, H2, H3, H4, H9⟩
  isplitl [H0l H0r]
  · isplitl [H0l]; · iexact H0l
    iexact H0r
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The items as segments -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the arrays: the core owes nothing. -/
abbrev R (c : Dev nD) : sProp 𝕄 := iprop(∃ W, owes (c : Thread nD τ) (0 : CellTallies nD τ sig Unit) W)

/-- The three reshapes before the pallas_call. -/
def seg0 : HostSeg (Ix := Unit) (Name := ℕ) (U := UR sig nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V₀ m) R
/-- The reshape after it. -/
def seg2 : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) R

set_option backward.isDefEq.respectTransparency.types false in
/-- THE PALLAS_CALL: entered from every array at the contents after the three reshapes, left with only its result
    array changed; its windows' arrays cut out of the arrays at entry and put back at exit; nothing owed; no semaphore
    of the kernel's own. -/
def reg0 : RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(emp)
  Y c := iprop(emp)
  Z c := restAt c (W1 m c)
  hentry c := by
    rw [Pipeline.ownSems0_none]
    iintro ⟨⟨Hub, HO⟩, -, -⟩
    ihave H := (entry_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    iintro ⟨Ha, HO, -, Hrest⟩
    imodintro
    isplitl [Ha Hrest]
    · iapply (exit_join m c); isplitl [Ha] <;> iassumption
    unfold Pipeline.Dat.owesAt Pipeline.owesWithin
    icases HO with ⟨%W, -, HO⟩; iexists W; iexact HO

/-- The program's items in order. -/
abbrev segs : List (Seg (pcfgs (F := F)) adm (dats m) () defs₀ 𝒱₀ L lv) := [.host (seg0 m), .region (reg0 m), .host (seg2 m)]

/-- An unscoped array is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and
    every final state holds every array of the program at the last contents named above. -/
theorem run_main : θ_run defs (onTc (τ := τ) (main (F := F))) ⟨m, fun _ => 0, ρ⟩
    (fun r => ∀ c : Dev nD, ∀ b ∈ Pipeline.ucRefs τ sig, r.2.mem ((c : Thread nD τ).1, b) = W3 m c b) := by
  refine Pipeline.θ_run_regions_kit (pcfgs (F := F)) adm (dats m) () cellOf_inj emb₁ defs₀ 𝒱₀ L lv m ρ main (segs m)
    (fun c Q => by
      rewrite [main_chain c, Seg.run_eq_chain,
        show (segs m).map Seg.prog = [
          StableHlo.seq hostOps0,
          Prog.lift (.customCall (Pipeline.entry 0) ()),
          StableHlo.seq hostOps1 ] from rfl]
      exact .rfl)
    (by simp only [segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (W3 m c))
    (hch := ⟨fun _ => .rfl, fun _ => .rfl, fun _ => .rfl, fun _ => .rfl⟩)
    (hinit := ?_)
    (QY := fun c s => ∀ b ∈ Pipeline.ucRefs τ sig, s.mem ((c : Thread nD τ).1, b) = W3 m c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V₀ m c)
      from Pipeline.unscopedBufs_held (Ix := Unit) (Name := ℕ) (U := UR sig nD τ) (Lvl := ℕ) c (V₀ m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro; exact h
    · iexact HSI

end Cert.Kernel.Hand

end
-- ==== Proof.IdealBody.lean ====
import proofs.«107998_g43258910606027_cont_8to1_b_1695_36_alg».proof.Proof.Gen.KernelIdeal.Launch
import proofs.«107998_g43258910606027_cont_8to1_b_1695_36_alg».proof.Proof.Gen.KernelIdeal.Skeleton
import proofs.«107998_g43258910606027_cont_8to1_b_1695_36_alg».proof.Proof.Gen.KernelIdeal.Points
import Idealize.ShloMosaic.Lib.Pipeline.FrameBody
import Idealize.ShloMosaic.Lib.Ring
import Idealize.ShloMosaic.Lib.Tactic

/-!
# The kernel body at one grid point

The pallas_call walks four grid points. At point `t` its two row windows stage rows
`[(2t)·2048, (2t+1)·2048)` and `[(2t+1)·2048, (2t+2)·2048)` of the one input matrix (both windows
sit on the same array), four further windows stage the weights and biases whole, and the output window
stages slab `t` of the `[4, 2, 2048]` result. The body stores two `[1, 1, 2048]` rows into that slab: row 0
from the first row block, row 1 from the second. This file states what the slab holds after the body as the
overlay of those two stores, proves the body's triple by symbolic execution, and packages the
per-point proof data (what every staging buffer holds after the body, the share of the input matrix
each of the two row windows holds: one half each).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- Core `c`'s buffers at launch, as a valuation. -/
abbrev V₀ (c : Dev nD) : Valuation τ sig (Elt F) := fun b => m ((c : Dev nD), b)

/-- Core `c`'s buffers when the region is entered: the three reshapes of the biases and of the second weight
    have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rX : Rect S2048x128 := Rect.unit (s := S2048x128) ![0, 0] S2048x128.size inb_S2048x128_S2048x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rS : Rect S1x1 := Rect.unit (s := S1x1) ![0, 0] S1x1.size inb_S1x1_S1x1_0_0
abbrev rO0 : Rect S1x2x2048 := Rect.unit (s := S1x2x2048) ![0, 0, 0] S1x1x2048.size inb_S1x2x2048_S1x1x2048_0_0_0
abbrev rO1 : Rect S1x2x2048 := Rect.unit (s := S1x2x2048) ![0, 1, 0] S1x1x2048.size inb_S1x2x2048_S1x1x2048_0_1_0

/-! ## What the body leaves in the output slab -/

/-- The output window's staging buffer after the body, from the six input blocks: its two row stores as pieces,
    the later one first. -/
def outSlab (xa xb : Vec F S2048x128 .f32) (w1 : Vec F S128x128 .f32) (b1 w2 : Vec F S1x128 .f32) (b2 : Vec F S1x1 .f32) :
    Vec F S1x2x2048 .f32 :=
  View.canon [⟨rO1, k0_pay1 (k0_pay6 (View.ld w1 rW) (View.ld b1 rB) (View.ld w2 rB) (View.ld xb rX)) (k0_pay7 (View.ld b2 rS))⟩,
    ⟨rO0, k0_pay5 (View.ld w1 rW) (View.ld b1 rB) (View.ld w2 rB) (View.ld b2 rS) (View.ld xa rX)⟩]

/-- The two row stores tile the slab, so they cover it. -/
theorem coverSlab (p1 p0 : Vec F S1x1x2048 .f32) (y : S1x2x2048.Idx) :
    ∃ pc ∈ ([⟨rO1, p1⟩, ⟨rO0, p0⟩] : List (View.Piece (Elt F) S1x2x2048 .f32)), y ∈ pc.1.set :=
  View.cover_of_tiledL [⟨rO1, p1⟩, ⟨rO0, p0⟩] S1x1x2048.size (by sl_kernel_rfl) y

/-! ## The body's triple -/

set_option maxHeartbeats 2000000 in
/-- The kernel body on whole staging memrefs, the inputs' at read contents and the output's at anything, runs to the
    continuation holding the inputs' as they were and the output's at `outSlab` of the inputs'. -/
theorem sound_kernel (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x1 .f32) (harg6 : arg6.IsWhole)
    (arg7 : Memref sig .tc .vmem S1x2x2048 .f32) (harg7 : arg7.IsWhole)
    (xa xb : Vec F S2048x128 .f32) (w1 : Vec F S128x128 .f32) (b1 w2 : Vec F S1x128 .f32) (b2 : Vec F S1x1 .f32) (K : PUnit → sProp 𝕄) :
    iprop(owns (c : Thread nD τ) arg1 fullShare xa ∗ owns (c : Thread nD τ) arg2 fullShare xb ∗ owns (c : Thread nD τ) arg3 fullShare w1
        ∗ owns (c : Thread nD τ) arg4 fullShare b1 ∗ owns (c : Thread nD τ) arg5 fullShare w2 ∗ owns (c : Thread nD τ) arg6 fullShare b2
        ∗ (∃ d, owns (c : Thread nD τ) arg7 fullShare d)
        ∗ (iprop(owns (c : Thread nD τ) arg1 fullShare xa ∗ owns (c : Thread nD τ) arg2 fullShare xb ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (outSlab xa xb w1 b1 w2 b2)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  exact View.read_writes_eq_canon _ _ _ (coverSlab _ _)

/-! ## The pipeline's proof data -/

/-- The proof data of the one pipeline on core `c`: the arrays as the region finds them; after the body at point `t`
    each input's buffer at its block and the output's at `outSlab` of the input blocks; the invariant the scoped rest
    (nothing: every scoped buffer is a staging buffer); nothing owed; the two row windows each hold one half of the
    input matrix, every other window its array outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outSlab (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) :
    (dats m 0 c).after 6 t = outSlab (iblk m c 0 t) (iblk m c 1 t) (iblk m c 2 t) (iblk m c 3 t) (iblk m c 4 t) (iblk m c 5 t) := by
  dsimp only [dats]

/-- Each input's current staging buffer holds its block at every point, fetched there or not: a window that is not
    fetched again has not moved. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the triple applies; the invariant and the core's
    tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealVals.lean ====
import proofs.«107998_g43258910606027_cont_8to1_b_1695_36_alg».proof.Proof.IdealBody
import Idealize.ShloMosaic.Lib.Pipeline.Frame
import Idealize.ShloMosaic.Lib.Pipeline.Regions

/-!
# The run of the whole program

The program is three reshapes (the two biases and the second weight, as rows), the pallas_call, and one reshape of
the `[4, 2, 2048]` result to `[16384, 1]`. Between these items the core holds every array of the program whole, at
contents this file names: as launched; after the three reshapes; after the pallas_call, which changes only its
result array; after the last reshape. The pallas_call's two row windows read one and the same input matrix:
at its entry that matrix's ownership is cut into two halves, one per window, and at its exit the halves — both
still at the launch contents, an input being never written — are joined again.
-/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents between the items -/

/-- After the three reshapes. -/
abbrev W1 (c : Dev nD) : Valuation τ sig (Elt F) := StableHlo.after hostOps0 (V₀ m c)
/-- What the pallas_call leaves in its result array. -/
abbrev slabs (c : Dev nD) : Buf (Elt F) ((c : Thread nD τ).loc main_call0_v3) := (dats m 0 c).arrAt 6 cfg0.N
/-- After the pallas_call: only its result array has changed. -/
abbrev W2 (c : Dev nD) : Valuation τ sig (Elt F) := Function.update (W1 m c) main_call0_v3 (slabs m c)
/-- After the last reshape. -/
abbrev W3 (c : Dev nD) : Valuation τ sig (Elt F) := StableHlo.after hostOps1 (W2 m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

abbrev hostOps0_W : List (Ref sig .tc) := [main_call0_v0, main_call0_v1, main_call0_v2]
theorem hostOps0_writes : (hostOps0 : List (HloOp τ sig (Elt F))).Forall fun op => op.writes ⊆ (hostOps0_W.map (Proc.devRef (τ := τ) .tc)).toFinset := by
  simp only [List.Forall]; refine ⟨?_, ?_, ?_⟩ <;> (simp only [StableHlo.reshape_writes, StableHlo.TRef.reshape, Finset.singleton_subset_iff, List.mem_toFinset]; exact List.mem_map_of_mem (by decide))
abbrev hostOps1_W : List (Ref sig .tc) := [main_v0]
theorem hostOps1_writes : (hostOps1 : List (HloOp τ sig (Elt F))).Forall fun op => op.writes ⊆ (hostOps1_W.map (Proc.devRef (τ := τ) .tc)).toFinset := by
  simp only [List.Forall]; (simp only [StableHlo.reshape_writes, StableHlo.TRef.reshape, Finset.singleton_subset_iff, List.mem_toFinset]; exact List.mem_map_of_mem (by decide))

theorem W1_of (c : Dev nD) (r : Ref sig .tc) (h : r ∉ hostOps0_W) : W1 m c r = V₀ m c r :=
  StableHlo.after_of_writes_sub hostOps0 _ hostOps0_writes h
theorem W2_of (c : Dev nD) (r : Ref sig .tc) (h : r ∉ ([main_call0_v3] : List (Ref sig .tc))) : W2 m c r = W1 m c r := by
  simp only [W2, Function.update_of_ne (StableHlo.devRef_ne_of_ne (List.ne_of_not_mem_cons h) : (Proc.devRef .tc r : DevRef τ sig) ≠ Proc.devRef .tc main_call0_v3)]
theorem W3_of (c : Dev nD) (r : Ref sig .tc) (h : r ∉ hostOps1_W) : W3 m c r = W2 m c r :=
  StableHlo.after_of_writes_sub hostOps1 _ hostOps1_writes h

/-- An argument array reaches the end as launched: no reshape writes it and the pallas_call changes only its result. -/
theorem W3_arg (c : Dev nD) (r : Ref sig .tc) (h0 : r ∉ hostOps0_W) (h1 : r ∉ ([main_call0_v3] : List (Ref sig .tc))) (h2 : r ∉ hostOps1_W) :
    W3 m c r = m ((c : Thread nD τ).loc r) :=
  (W3_of m c r h2).trans <| (W2_of m c r h1).trans <| (W1_of m c r h0).trans rfl

/-! ## Every array, one by one -/

/-- The core's arrays listed: five arguments, the three reshaped rows, the pallas_call's result, the program's result. -/
theorem held_list (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
        ∗ (((c : Thread nD τ).loc main_arg2) ↦{fullShare} W main_arg2) ∗ (((c : Thread nD τ).loc main_arg3) ↦{fullShare} W main_arg3)
        ∗ (((c : Thread nD τ).loc main_arg4) ↦{fullShare} W main_arg4) ∗ (((c : Thread nD τ).loc main_call0_v0) ↦{fullShare} W main_call0_v0)
        ∗ (((c : Thread nD τ).loc main_call0_v1) ↦{fullShare} W main_call0_v1) ∗ (((c : Thread nD τ).loc main_call0_v2) ↦{fullShare} W main_call0_v2)
        ∗ (((c : Thread nD τ).loc main_call0_v3) ↦{fullShare} W main_call0_v3) ∗ (((c : Thread nD τ).loc main_v0) ↦{fullShare} W main_v0)) := by
  rw [← Pipeline.unscopedBufs_held (Ix := Unit) (Name := ℕ) (U := UR sig nD τ) (Lvl := ℕ) c W]
  unfold unscopedBufs
  exact bigSep_eq_bigSepL_of_eq [main_arg0, main_arg1, main_arg2, main_arg3, main_arg4, main_call0_v0, main_call0_v1, main_call0_v2, main_call0_v3, main_v0] (by decide) (by decide) _

end Cert.KernelIdeal.Hand

end
-- ==== Proof.IdealRun.lean ====
import proofs.«107998_g43258910606027_cont_8to1_b_1695_36_alg».proof.Proof.IdealVals
import Idealize.ShloMosaic.Lib.Pipeline.Frame
import Idealize.ShloMosaic.Lib.Pipeline.Regions

/-!
# The pallas_call as one item of the program, and the run

The pallas_call is entered from every array of the program held whole: its windows' arrays are cut out — the input
matrix, which two windows read, into two halves — and at its exit put back, the halves joined, the result array at what
the write-backs left. With the reshapes before and after it as the other items, the library's theorem for a program
that is a list of items gives the run: every weakly fair execution terminates, nothing faults, and every array ends at
the contents the items leave.
-/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pallas_call's arrays, window by window -/

/-- The arrays the rest of the program holds while the pallas_call runs: the two biases, the second weight and the
    program's result buffer, which no window stages. -/
abbrev restAt (c : Dev nD) (W : Valuation τ sig (Elt F)) : sProp 𝕄 :=
  iprop((((c : Thread nD τ).loc main_arg2) ↦{fullShare} W main_arg2) ∗ (((c : Thread nD τ).loc main_arg3) ↦{fullShare} W main_arg3)
    ∗ (((c : Thread nD τ).loc main_arg4) ↦{fullShare} W main_arg4) ∗ (((c : Thread nD τ).loc main_v0) ↦{fullShare} W main_v0))

/-- The windows' arrays one by one: the two row windows each at one half of the input matrix, the others outright. -/
theorem arrays_list (c : Dev nD) (Fs : (w : Fin cfg0.W) → Buf (Elt F) ((cfg0.win w).arr.view.loc (c : Thread nD τ))) :
    ((dats m 0 c).arrays Fs : sProp 𝕄)
      = iprop((((c : Thread nD τ).loc main_arg0) ↦{fullShare.left} Fs 0) ∗ (((c : Thread nD τ).loc main_arg0) ↦{fullShare.right} Fs 1)
        ∗ (((c : Thread nD τ).loc main_arg1) ↦{fullShare} Fs 2) ∗ (((c : Thread nD τ).loc main_call0_v0) ↦{fullShare} Fs 3)
        ∗ (((c : Thread nD τ).loc main_call0_v1) ↦{fullShare} Fs 4) ∗ (((c : Thread nD τ).loc main_call0_v2) ↦{fullShare} Fs 5)
        ∗ (((c : Thread nD τ).loc main_call0_v3) ↦{fullShare} Fs 6)) := by
  unfold Pipeline.Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ]
  rfl

/-- ENTRY of the pallas_call: every array held whole is the windows' arrays at their entry contents — the input
    matrix cut into the two row windows' halves — and the rest. -/
theorem entry_split (c : Dev nD) :
    (StableHlo.held (c : Thread nD τ) (Pipeline.ucRefs τ sig) (W1 m c) : sProp 𝕄)
      ⊢ iprop((dats m 0 c).arrays ((dats m 0 c).arrAt · 0) ∗ restAt c (W1 m c)) := by
  rw [held_list, arrays_list]
  have hs := (pointsTo_share (ℓ := (c : Thread nD τ).loc main_arg0) (I := Finset.univ) (f := W1 m c main_arg0) (Val := Elt F) (Ix := Unit) (Name := ℕ) (U := UR sig nD τ) (Lvl := ℕ) (PosShare.mem_left_op_right fullShare)).1
  refine (sep_mono hs .rfl).trans ?_
  iintro ⟨⟨H0l, H0r⟩, H1, H2, H3, H4, H5, H6, H7, H8, H9⟩
  isplitl [H0l H0r H1 H5 H6 H7 H8]
  · isplitl [H0l]; · iexact H0l
    isplitl [H0r]; · iexact H0r
    isplitl [H1]; · iexact H1
    isplitl [H5]; · iexact H5
    isplitl [H6]; · iexact H6
    isplitl [H7]; · iexact H7
    iexact H8
  isplitl [H2]; · iexact H2
  isplitl [H3]; · iexact H3
  isplitl [H4]; · iexact H4
  iexact H9

/-- EXIT of the pallas_call: the input windows' arrays are as at entry (an input is never written), so the two halves
    of the input matrix join; the result array holds what the write-backs left. -/
theorem exit_join (c : Dev nD) :
    iprop((dats m 0 c).arrays ((dats m 0 c).arrAt · cfg0.N) ∗ restAt c (W1 m c))
      ⊢ (StableHlo.held (c : Thread nD τ) (Pipeline.ucRefs τ sig) (W2 m c) : sProp 𝕄) := by
  rw [held_list, arrays_list]
  rw [(dats m 0 c).arrAt_in 0 rfl, (dats m 0 c).arrAt_in 1 rfl, (dats m 0 c).arrAt_in 2 rfl, (dats m 0 c).arrAt_in 3 rfl,
    (dats m 0 c).arrAt_in 4 rfl, (dats m 0 c).arrAt_in 5 rfl]
  rw [W2_of m c main_arg0 (by decide), W2_of m c main_arg1 (by decide), W2_of m c main_arg2 (by decide), W2_of m c main_arg3 (by decide),
    W2_of m c main_arg4 (by decide), W2_of m c main_call0_v0 (by decide), W2_of m c main_call0_v1 (by decide), W2_of m c main_call0_v2 (by decide),
    W2_of m c main_v0 (by decide), show W2 m c main_call0_v3 = slabs m c from Function.update_self ..]
  have hj := (pointsTo_share (ℓ := (c : Thread nD τ).loc main_arg0) (I := Finset.univ) (f := W1 m c main_arg0) (Val := Elt F) (Ix := Unit) (Name := ℕ) (U := UR sig nD τ) (Lvl := ℕ) (PosShare.mem_left_op_right fullShare)).2
  refine BIBase.Entails.trans ?_ (sep_mono hj .rfl)
  iintro ⟨⟨H0l, H0r, H1, H5, H6, H7, H8⟩, H2, H3, H4, H9⟩
  isplitl [H0l H0r]
  · isplitl [H0l]; · iexact H0l
    iexact H0r
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The items as segments -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the arrays: the core owes nothing. -/
abbrev R (c : Dev nD) : sProp 𝕄 := iprop(∃ W, owes (c : Thread nD τ) (0 : CellTallies nD τ sig Unit) W)

/-- The three reshapes before the pallas_call. -/
def seg0 : HostSeg (Ix := Unit) (Name := ℕ) (U := UR sig nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V₀ m) R
/-- The reshape after it. -/
def seg2 : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) R

set_option backward.isDefEq.respectTransparency.types false in
/-- THE PALLAS_CALL: entered from every array at the contents after the three reshapes, left with only its result
    array changed; its windows' arrays cut out of the arrays at entry and put back at exit; nothing owed; no semaphore
    of the kernel's own. -/
def reg0 : RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(emp)
  Y c := iprop(emp)
  Z c := restAt c (W1 m c)
  hentry c := by
    rw [Pipeline.ownSems0_none]
    iintro ⟨⟨Hub, HO⟩, -, -⟩
    ihave H := (entry_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    iintro ⟨Ha, HO, -, Hrest⟩
    imodintro
    isplitl [Ha Hrest]
    · iapply (exit_join m c); isplitl [Ha] <;> iassumption
    unfold Pipeline.Dat.owesAt Pipeline.owesWithin
    icases HO with ⟨%W, -, HO⟩; iexists W; iexact HO

/-- The program's items in order. -/
abbrev segs : List (Seg (pcfgs (F := F)) adm (dats m) () defs₀ 𝒱₀ L lv) := [.host (seg0 m), .region (reg0 m), .host (seg2 m)]

/-- An unscoped array is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and
    every final state holds every array of the program at the last contents named above. -/
theorem run_main : θ_run defs (onTc (τ := τ) (main (F := F))) ⟨m, fun _ => 0, ρ⟩
    (fun r => ∀ c : Dev nD, ∀ b ∈ Pipeline.ucRefs τ sig, r.2.mem ((c : Thread nD τ).1, b) = W3 m c b) := by
  refine Pipeline.θ_run_regions_kit (pcfgs (F := F)) adm (dats m) () cellOf_inj emb₁ defs₀ 𝒱₀ L lv m ρ main (segs m)
    (fun c Q => by
      rewrite [main_chain c, Seg.run_eq_chain,
        show (segs m).map Seg.prog = [
          StableHlo.seq hostOps0,
          Prog.lift (.customCall (Pipeline.entry 0) ()),
          StableHlo.seq hostOps1 ] from rfl]
      exact .rfl)
    (by simp only [segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (W3 m c))
    (hch := ⟨fun _ => .rfl, fun _ => .rfl, fun _ => .rfl, fun _ => .rfl⟩)
    (hinit := ?_)
    (QY := fun c s => ∀ b ∈ Pipeline.ucRefs τ sig, s.mem ((c : Thread nD τ).1, b) = W3 m c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V₀ m c)
      from Pipeline.unscopedBufs_held (Ix := Unit) (Name := ℕ) (U := UR sig nD τ) (Lvl := ℕ) c (V₀ m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro; exact h
    · iexact HSI

end Cert.KernelIdeal.Hand

end
-- ==== Proof.Spec.lean ====
/- The value both programs compute, index by index: a two-layer perceptron with a rectifier between the layers and a
   logistic output, one number per input row. The reference writes the logistic as `1 / (1 + e^(-z))`, the kernel as
   `1/2 · tanh (z/2) + 1/2`; `sigm_tanh` says the two are one function on every extended real. -/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx
open scoped BigOperators

/-! ## The two float constants -/

/-- The pattern of `0.5` denotes the real `1/2`. -/
theorem ofBits_half : Ideal.ofBits .f32 0x3F000000#32 = ((1 / 2 : ℝ) : EReal) := by
  simp [Ideal.ofBits, Ideal.ieee, -EReal.coe_mul]; norm_num

/-- The pattern of `1.0` denotes `1`. -/
theorem ofBits_one : Ideal.ofBits .f32 0x3F800000#32 = 1 := by
  simp [Ideal.ofBits, Ideal.ieee, -EReal.coe_mul]; norm_num

/-! ## The specification -/

/-- The logistic function in the reference's form, `1 / (1 + e^(-z))`, over the reference's own constants. -/
def sigm (z : EReal) : EReal :=
  Ideal.div (Ideal.ofBits .f32 0x3F800000#32) (Ideal.ofBits .f32 0x3F800000#32 + Ideal.exp (-z))

/-- Hidden unit `j` of one input row: the rectified affine form `max (∑ d, x d · W1 d j + b1 j) 0`. -/
def hid (xr : Fin 128 → EReal) (W1 : Fin 128 → Fin 128 → EReal) (b1 : Fin 128 → EReal) (j : Fin 128) : EReal :=
  max ((∑ d : Fin 128, xr d * W1 d j) + b1 j) 0

/-- The logit of one input row: `∑ j, hid j · W2 j + b2`. -/
def lgt (xr : Fin 128 → EReal) (W1 : Fin 128 → Fin 128 → EReal) (b1 W2 : Fin 128 → EReal) (b2 : EReal) : EReal :=
  (∑ j : Fin 128, hid xr W1 b1 j * W2 j) + b2

/-- The output for one input row: the logistic of its logit. -/
def row (xr : Fin 128 → EReal) (W1 : Fin 128 → Fin 128 → EReal) (b1 W2 : Fin 128 → EReal) (b2 : EReal) : EReal :=
  sigm (lgt xr W1 b1 W2 b2)

/-- The whole result: row `n` of the output is `row` of row `n` of the input. -/
def out (x : FVec Ideal ⟨2, ![16384, 128]⟩ .f32) (W1 : FVec Ideal ⟨2, ![128, 128]⟩ .f32) (b1 : FVec Ideal ⟨1, ![128]⟩ .f32)
    (W2 : FVec Ideal ⟨2, ![128, 1]⟩ .f32) (b2 : FVec Ideal ⟨1, ![1]⟩ .f32) : FVec Ideal ⟨2, ![16384, 1]⟩ .f32 :=
  fun i => row (fun d => x (ix2 (i 0) d)) (fun d j => W1 (ix2 d j)) (fun j => b1 (ix1 j)) (fun j => W2 (ix2 j 0)) (b2 (ix1 0))

/-! ## The two forms of the logistic function -/

/-- On the reals, `1/2 · tanh (r/2) + 1/2 = 1 / (1 + e^(-r))`: with `a = e^(r/2)`, the left side is `a / (a + a⁻¹)` and
    `e^(-r) = a⁻¹ · a⁻¹`. -/
theorem half_tanh_half (r : ℝ) : 1 / 2 * Real.tanh (1 / 2 * r) + 1 / 2 = (1 + Real.exp (-r))⁻¹ := by
  have ha : 0 < Real.exp (1 / 2 * r) := Real.exp_pos _
  have hb : Real.exp (-(1 / 2 * r)) = (Real.exp (1 / 2 * r))⁻¹ := Real.exp_neg _
  have hr : Real.exp (-r) = (Real.exp (1 / 2 * r))⁻¹ * (Real.exp (1 / 2 * r))⁻¹ := by
    rw [← hb, ← Real.exp_add]; congr 1; ring
  rw [Real.tanh_eq, hb, hr]
  generalize Real.exp (1 / 2 * r) = a at ha
  field_simp
  ring

/-- The reference's form is the library's `logistic`. -/
theorem sigm_eq_logistic (z : EReal) : sigm z = Ideal.logistic z := by
  unfold sigm Ideal.logistic
  rw [ofBits_one]

/-- The kernel's form of the logistic function, `1/2 · tanh (z/2) + 1/2` over its constant `0.5`, is the reference's
    at every extended real: at `-∞` both are `0`, at `+∞` both are `1`. -/
theorem sigm_tanh (z : EReal) :
    Ideal.ofBits .f32 0x3F000000#32 * Ideal.tanh (Ideal.ofBits .f32 0x3F000000#32 * z) + Ideal.ofBits .f32 0x3F000000#32
      = sigm z := by
  rw [sigm_eq_logistic, ofBits_half]
  induction z using EReal.rec with
  | bot =>
    rw [EReal.coe_mul_bot_of_pos (by norm_num), Ideal.tanh_bot, Ideal.logistic_bot,
      show (-1 : EReal) = ((-1 : ℝ) : EReal) by rw [EReal.coe_neg, EReal.coe_one], ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, ← EReal.coe_mul, ← EReal.coe_add, Ideal.logistic_coe, half_tanh_half]

end Cert.Mlp

end
-- ==== Proof.KerPay.lean ====
/- The two values the kernel body stores, read at a row: each is the specification's `row` of that row of the input
   block. The body's two matrix products are read at an index as sums over the one contracted axis; the layout
   operations around them (unit-axis casts, the row broadcasts of the biases) are read at an index by coordinates; the
   kernel's form of the logistic function meets the reference's by `sigm_tanh`. -/
import proofs.«107998_g43258910606027_cont_8to1_b_1695_36_alg».proof.Proof.Spec
import proofs.«107998_g43258910606027_cont_8to1_b_1695_36_alg».proof.Proof.Gen.KernelIdeal.Skeleton
import Idealize.ShloMosaic.Lib.ValueLayout
import Idealize.ShloMosaic.PureOps.Ideal.Laws

noncomputable section

namespace Cert.Mlp.Ker

open Idealize.ShloMosaic Idealize.ShloMosaic.ValueIdx Cert.KernelIdeal Cert.KernelIdeal.Gen
open scoped BigOperators

/-! ## Pointwise and layout operations at an index -/

/-- A hyperbolic tangent at an index is that of the element. -/
theorem tanh_apply {s : Shape} {φ : FTy} (a : FVec Ideal s φ) (i : s.Idx) :
    Idealize.ShloMosaic.tanh a i = Ideal.tanh (a i) := rfl

/-- A `[1, 1]` array broadcast to `[1, b]` reads its one element everywhere. -/
theorem broadcastTo_11_1b_apply {α : Type} {b : ℕ} (v : (⟨2, ![1, 1]⟩ : Shape).Idx → α)
    (h : (⟨2, ![1, 1]⟩ : Shape).Broadcasts ⟨2, ![1, b]⟩) (p : Fin 1) (c : Fin b) :
    broadcastTo ⟨2, ![1, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The first product: a block of rows times the first layer's weights -/

theorem lhs1_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs1_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs1_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs1_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The first product into a zero accumulator, at `(r, k)`: the sum over `d` of `x (r, d) · w (d, k)`. -/
theorem mm1_apply (x : FVec Ideal S2048x128 .f32) (w : FVec Ideal S128x128 .f32) (r : Fin 2048) (k : Fin 128) :
    matmul dot_S2048x128_S128x128_S2048x128_1_0_0_1_n_n none x w (constant S2048x128 .f32 0x00000000#32) (ix2 r k)
      = ∑ d : Fin 128, x (ix2 r d) * w (ix2 d k) := by
  refine (Ideal.matmul_constant_zero_apply dot_S2048x128_S128x128_S2048x128_1_0_0_1_n_n none x w (ix2 r k)).trans ?_
  rw [← Equiv.sum_comp (contrEquiv1 dot_S2048x128_S128x128_S2048x128_1_0_0_1_n_n 128 rfl rfl).symm]
  refine Finset.sum_congr rfl fun d _ => ?_
  have hd := contrEquiv1_symm_val dot_S2048x128_S128x128_S2048x128_1_0_0_1_n_n 128 rfl rfl d
  have el : dot_S2048x128_S128x128_S2048x128_1_0_0_1_n_n.lhsIdx (ix2 r k) ((contrEquiv1 dot_S2048x128_S128x128_S2048x128_1_0_0_1_n_n 128 rfl rfl).symm d) = ix2 r d := funext fun a => Fin.ext (by
    match a with
    | ⟨0, _⟩ => exact lhs1_0 _ _
    | ⟨1, _⟩ => exact (lhs1_1 _ _).trans hd)
  have er : dot_S2048x128_S128x128_S2048x128_1_0_0_1_n_n.rhsIdx (ix2 r k) ((contrEquiv1 dot_S2048x128_S128x128_S2048x128_1_0_0_1_n_n 128 rfl rfl).symm d) = ix2 d k := funext fun a => Fin.ext (by
    match a with
    | ⟨0, _⟩ => exact (rhs1_0 _ _).trans hd
    | ⟨1, _⟩ => exact rhs1_1 _ _)
  rw [el, er]

/-! ## The second product: the second layer's weights, a row, times the hidden block transposed -/

theorem lhs2_0 (i : S1x2048.Idx) (q : dot_S1x128_S2048x128_S1x2048_1_1_0_0_n_n.contr.Idx) :
    (dot_S1x128_S2048x128_S1x2048_1_1_0_0_n_n.lhsIdx i q 0).val = (i 0).val := by
  unfold DotDims.lhsIdx
  rw [dif_neg (show ¬(0 : Fin S1x128.rank) ∈ dot_S1x128_S2048x128_S1x2048_1_1_0_0_n_n.lhsBatch by decide), dif_pos (show (0 : Fin S1x128.rank) ∈ dot_S1x128_S2048x128_S1x2048_1_1_0_0_n_n.lhsNonContracting by decide)]
  rfl
theorem lhs2_1 (i : S1x2048.Idx) (q : dot_S1x128_S2048x128_S1x2048_1_1_0_0_n_n.contr.Idx) :
    (dot_S1x128_S2048x128_S1x2048_1_1_0_0_n_n.lhsIdx i q 1).val = (q ⟨0, by decide⟩).val :=
  dot_S1x128_S2048x128_S1x2048_1_1_0_0_n_n.lhsIdx_val_of_single rfl i q
theorem rhs2_0 (i : S1x2048.Idx) (q : dot_S1x128_S2048x128_S1x2048_1_1_0_0_n_n.contr.Idx) :
    (dot_S1x128_S2048x128_S1x2048_1_1_0_0_n_n.rhsIdx i q 0).val = (i 1).val := by
  unfold DotDims.rhsIdx
  rw [dif_neg (show ¬(0 : Fin S2048x128.rank) ∈ dot_S1x128_S2048x128_S1x2048_1_1_0_0_n_n.rhsBatch by decide), dif_pos (show (0 : Fin S2048x128.rank) ∈ dot_S1x128_S2048x128_S1x2048_1_1_0_0_n_n.rhsNonContracting by decide)]
  rfl
theorem rhs2_1 (i : S1x2048.Idx) (q : dot_S1x128_S2048x128_S1x2048_1_1_0_0_n_n.contr.Idx) :
    (dot_S1x128_S2048x128_S1x2048_1_1_0_0_n_n.rhsIdx i q 1).val = (q ⟨0, by decide⟩).val :=
  dot_S1x128_S2048x128_S1x2048_1_1_0_0_n_n.rhsIdx_val_of_single rfl i q

/-- The second product into a zero accumulator, at `(0, r)`: the sum over `k` of `w (0, k) · h (r, k)`. -/
theorem mm2_apply (w : FVec Ideal S1x128 .f32) (h : FVec Ideal S2048x128 .f32) (u : Fin 1) (r : Fin 2048) :
    matmul dot_S1x128_S2048x128_S1x2048_1_1_0_0_n_n none w h (constant S1x2048 .f32 0x00000000#32) (ix2 u r)
      = ∑ k : Fin 128, w (ix2 u k) * h (ix2 r k) := by
  refine (Ideal.matmul_constant_zero_apply dot_S1x128_S2048x128_S1x2048_1_1_0_0_n_n none w h (ix2 u r)).trans ?_
  rw [← Equiv.sum_comp (contrEquiv1 dot_S1x128_S2048x128_S1x2048_1_1_0_0_n_n 128 rfl rfl).symm]
  refine Finset.sum_congr rfl fun k _ => ?_
  have hk := contrEquiv1_symm_val dot_S1x128_S2048x128_S1x2048_1_1_0_0_n_n 128 rfl rfl k
  have el : dot_S1x128_S2048x128_S1x2048_1_1_0_0_n_n.lhsIdx (ix2 u r) ((contrEquiv1 dot_S1x128_S2048x128_S1x2048_1_1_0_0_n_n 128 rfl rfl).symm k) = ix2 u k := funext fun a => Fin.ext (by
    match a with
    | ⟨0, _⟩ => exact lhs2_0 _ _
    | ⟨1, _⟩ => exact (lhs2_1 _ _).trans hk)
  have er : dot_S1x128_S2048x128_S1x2048_1_1_0_0_n_n.rhsIdx (ix2 u r) ((contrEquiv1 dot_S1x128_S2048x128_S1x2048_1_1_0_0_n_n 128 rfl rfl).symm k) = ix2 r k := funext fun a => Fin.ext (by
    match a with
    | ⟨0, _⟩ => exact rhs2_0 _ _
    | ⟨1, _⟩ => exact (rhs2_1 _ _).trans hk)
  rw [el, er]

/-! ## The stored values -/

/-- The value stored for the first half of a block, at row `r`. -/
theorem pay5_at (w1 : Vec Ideal S128x128 .f32) (b1r w2r : Vec Ideal S1x128 .f32) (b2r : Vec Ideal S1x1 .f32)
    (xb : Vec Ideal S2048x128 .f32) (r : Fin 2048) :
    Gen.k0_pay5 (F := Ideal) w1 b1r w2r b2r xb (ix3 (0 : Fin 1) (0 : Fin 1) r)
      = Cert.Mlp.row (fun d => xb (ix2 r d)) (fun d j => w1 (ix2 d j)) (fun j => b1r (ix2 (0 : Fin 1) j))
          (fun j => w2r (ix2 (0 : Fin 1) j)) (b2r (ix2 (0 : Fin 1) (0 : Fin 1))) := by
  simp only [Gen.k0_pay5, Gen.k0_pay2, Gen.k0_pay3, Gen.k0_pay4, shapeCast_ab_1ab_apply, addf_apply, mulf_apply,
    tanh_apply, broadcast_apply, maximumf_apply, mm2_apply, mm1_apply, broadcastTo_1b_ab_apply,
    broadcastTo_11_1b_apply, shapeCast_self, Ideal.ofBits_def, Ideal.ofBits_zero_f32]
  refine (sigm_tanh _).trans ?_
  show sigm _ = sigm (lgt _ _ _ _ _)
  refine congrArg sigm ?_
  show _ + _ = (∑ j : Fin 128, hid _ _ _ j * _) + _
  exact congrArg (· + _) (Finset.sum_congr rfl fun k _ => mul_comm _ _)

/-- The value stored for the second half of a block, at row `r`: the same function of the second input block. -/
theorem pay1_at (w1 : Vec Ideal S128x128 .f32) (b1r w2r : Vec Ideal S1x128 .f32) (b2r : Vec Ideal S1x1 .f32)
    (xb' : Vec Ideal S2048x128 .f32) (r : Fin 2048) :
    Gen.k0_pay1 (F := Ideal) (Gen.k0_pay6 w1 b1r w2r xb') (Gen.k0_pay7 b2r) (ix3 (0 : Fin 1) (0 : Fin 1) r)
      = Cert.Mlp.row (fun d => xb' (ix2 r d)) (fun d j => w1 (ix2 d j)) (fun j => b1r (ix2 (0 : Fin 1) j))
          (fun j => w2r (ix2 (0 : Fin 1) j)) (b2r (ix2 (0 : Fin 1) (0 : Fin 1))) := by
  simp only [Gen.k0_pay1, Gen.k0_pay6, Gen.k0_pay7, Gen.k0_pay2, Gen.k0_pay3, Gen.k0_pay4, shapeCast_ab_1ab_apply,
    addf_apply, mulf_apply, tanh_apply, broadcast_apply, maximumf_apply, mm2_apply, mm1_apply,
    broadcastTo_1b_ab_apply, broadcastTo_11_1b_apply, shapeCast_self, Ideal.ofBits_def, Ideal.ofBits_zero_f32]
  refine (sigm_tanh _).trans ?_
  show sigm _ = sigm (lgt _ _ _ _ _)
  refine congrArg sigm ?_
  show _ + _ = (∑ j : Fin 128, hid _ _ _ j * _) + _
  exact congrArg (· + _) (Finset.sum_congr rfl fun k _ => mul_comm _ _)

end Cert.Mlp.Ker

end
-- ==== Proof.IdealBlocks.lean ====
import proofs.«107998_g43258910606027_cont_8to1_b_1695_36_alg».proof.Proof.IdealVals
import proofs.«107998_g43258910606027_cont_8to1_b_1695_36_alg».proof.Proof.KerPay
import Idealize.ShloMosaic.Lib.Pipeline.Value
import Idealize.ShloMosaic.Lib.ValueIdx
import Idealize.ShloMosaic.Lib.ValueLayout
import Idealize.ShloMosaic.Lib.StableHlo.Run

/-!
# The input blocks of the pallas_call, read at an index

At grid point `t` the two row windows stage rows `(2t)·2048 …` and `(2t+1)·2048 …` of the one input matrix; the
four other input windows stage their arrays whole. The matrix and the first layer's weights reach the region as
launched; the two biases and the second layer's weights reach it reshaped to rows, and a reshape read at an index is
its operand at the index with the same row-major position. This file states each block's entry as an entry of a
launch array: the index maps are decided once over the four points, and a block's coordinate in its array is the
block index times the block size plus the coordinate inside the block.
-/

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)
/-! ## The index maps, decided over the four points -/

theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-! ## The arrays the region finds -/

theorem V_arg0 (c : Dev nD) : V m c main_arg0 = m ((c : Thread nD τ).loc main_arg0) :=
  W1_of m c main_arg0 (by decide)
theorem V_arg1 (c : Dev nD) : V m c main_arg1 = m ((c : Thread nD τ).loc main_arg1) :=
  W1_of m c main_arg1 (by decide)

theorem V_v0 (c : Dev nD) : (V m c main_call0_v0 : S1x128.Idx → EReal)
    = shapeCast S1x128 (m ((c : Thread nD τ).loc main_arg2) : S128.Idx → EReal) shapeCasts_S128_S1x128 := by
  dsimp only [V, hostOps0]; after_results; rfl
theorem V_v1 (c : Dev nD) : (V m c main_call0_v1 : S1x128.Idx → EReal)
    = shapeCast S1x128 (m ((c : Thread nD τ).loc main_arg3) : S128x1.Idx → EReal) shapeCasts_S128x1_S1x128 := by
  dsimp only [V, hostOps0]; after_results; rfl
theorem V_v2 (c : Dev nD) : (V m c main_call0_v2 : S1x1.Idx → EReal)
    = shapeCast S1x1 (m ((c : Thread nD τ).loc main_arg4) : S1.Idx → EReal) shapeCasts_S1_S1x1 := by
  dsimp only [V, hostOps0]; after_results; rfl

/-! ## The input blocks, read where their rectangles say -/

/-- First row window: its block at point `t` holds rows `(2t)·2048 …` of the input matrix. -/
theorem iblk0_apply (c : Dev nD) (t : Fin cfg0.N) (r : Fin 2048) (d : Fin 128) (n : Fin 16384)
    (hn : n.val = 2 * t.val * 2048 + r.val) :
    (iblk m c 0 t : Vec Ideal S2048x128 .f32) (ix2 r d)
      = (m ((c : Thread nD τ).loc main_arg0) : S16384x128.Idx → EReal) (ix2 n d) := by
  obtain ⟨e0, e1, -⟩ := idx_facts t
  unfold iblk
  rw [View.read_apply]
  show V m c main_arg0 _ = _
  rw [V_arg0]
  congr 1
  funext a
  apply Fin.ext
  match a with
  | ⟨0, _⟩ => show win0_0.index t (0 : Fin 2) * 2048 + 1 * r.val = n.val; rw [e0, hn]; omega
  | ⟨1, _⟩ => show win0_0.index t (1 : Fin 2) * 128 + 1 * d.val = d.val; rw [e1]; omega

/-- Second row window: rows `(2t+1)·2048 …`. -/
theorem iblk1_apply (c : Dev nD) (t : Fin cfg0.N) (r : Fin 2048) (d : Fin 128) (n : Fin 16384)
    (hn : n.val = (2 * t.val + 1) * 2048 + r.val) :
    (iblk m c 1 t : Vec Ideal S2048x128 .f32) (ix2 r d)
      = (m ((c : Thread nD τ).loc main_arg0) : S16384x128.Idx → EReal) (ix2 n d) := by
  obtain ⟨-, -, e0, e1, -⟩ := idx_facts t
  unfold iblk
  rw [View.read_apply]
  show V m c main_arg0 _ = _
  rw [V_arg0]
  congr 1
  funext a
  apply Fin.ext
  match a with
  | ⟨0, _⟩ => show win0_1.index t (0 : Fin 2) * 2048 + 1 * r.val = n.val; rw [e0, hn]; omega
  | ⟨1, _⟩ => show win0_1.index t (1 : Fin 2) * 128 + 1 * d.val = d.val; rw [e1]; omega

/-- The first layer's weights, staged whole. -/
theorem iblk2_apply (c : Dev nD) (t : Fin cfg0.N) (d j : Fin 128) :
    (iblk m c 2 t : Vec Ideal S128x128 .f32) (ix2 d j)
      = (m ((c : Thread nD τ).loc main_arg1) : S128x128.Idx → EReal) (ix2 d j) := by
  obtain ⟨-, -, -, -, e0, e1, -⟩ := idx_facts t
  unfold iblk
  rw [View.read_apply]
  show V m c main_arg1 _ = _
  rw [V_arg1]
  congr 1
  funext a
  apply Fin.ext
  match a with
  | ⟨0, _⟩ => show win0_2.index t (0 : Fin 2) * 128 + 1 * d.val = d.val; rw [e0]; omega
  | ⟨1, _⟩ => show win0_2.index t (1 : Fin 2) * 128 + 1 * j.val = j.val; rw [e1]; omega

/-- The first bias as a row, staged whole: entry `(0, j)` is entry `j` of the bias as launched. -/
theorem iblk3_apply (c : Dev nD) (t : Fin cfg0.N) (j : Fin 128) :
    (iblk m c 3 t : Vec Ideal S1x128 .f32) (ix2 (0 : Fin 1) j)
      = (m ((c : Thread nD τ).loc main_arg2) : S128.Idx → EReal) (ix1 j) := by
  obtain ⟨-, -, -, -, -, -, e0, e1, -⟩ := idx_facts t
  unfold iblk
  rw [View.read_apply]
  show (V m c main_call0_v0 : S1x128.Idx → EReal) _ = _
  rw [V_v0]
  refine Eq.trans (congrArg _ ?_) (shapeCast_a_1a_apply _ shapeCasts_S128_S1x128 (0 : Fin 1) j)
  funext a
  apply Fin.ext
  match a with
  | ⟨0, _⟩ => show win0_3.index t (0 : Fin 2) * 1 + 1 * 0 = 0; rw [e0]
  | ⟨1, _⟩ => show win0_3.index t (1 : Fin 2) * 128 + 1 * j.val = j.val; rw [e1]; omega

/-- A `[a, 1]` array cast to `[1, a]` reads, at `(0, i)`, the operand at `(i, 0)`. -/
theorem shapeCast_a1_1a_apply {α : Type} {a : ℕ} (x : (⟨2, ![a, 1]⟩ : Shape).Idx → α)
    (h : (⟨2, ![a, 1]⟩ : Shape).ShapeCasts ⟨2, ![1, a]⟩) (u v : Fin 1) (i : Fin a) :
    shapeCast ⟨2, ![1, a]⟩ x h (ix2 u i) = x (ix2 i v) :=
  shapeCast_apply x h _ _ (by
    have hu : u.val = 0 := by omega
    have hv : v.val = 0 := by omega
    rw [Shape.rowMajor_val_two, Shape.rowMajor_val_two]
    show i.val * 1 + v.val = u.val * a + i.val
    rw [hu, hv, Nat.zero_mul, Nat.zero_add, Nat.mul_one, Nat.add_zero])

/-- The second layer's weights as a row, staged whole: entry `(0, j)` is entry `(j, 0)` of the column as launched. -/
theorem iblk4_apply (c : Dev nD) (t : Fin cfg0.N) (j : Fin 128) :
    (iblk m c 4 t : Vec Ideal S1x128 .f32) (ix2 (0 : Fin 1) j)
      = (m ((c : Thread nD τ).loc main_arg3) : S128x1.Idx → EReal) (ix2 j (0 : Fin 1)) := by
  obtain ⟨-, -, -, -, -, -, -, -, e0, e1, -⟩ := idx_facts t
  unfold iblk
  rw [View.read_apply]
  show (V m c main_call0_v1 : S1x128.Idx → EReal) _ = _
  rw [V_v1]
  refine Eq.trans (congrArg _ ?_) (shapeCast_a1_1a_apply _ shapeCasts_S128x1_S1x128 (0 : Fin 1) (0 : Fin 1) j)
  funext a
  apply Fin.ext
  match a with
  | ⟨0, _⟩ => show win0_4.index t (0 : Fin 2) * 1 + 1 * 0 = 0; rw [e0]
  | ⟨1, _⟩ => show win0_4.index t (1 : Fin 2) * 128 + 1 * j.val = j.val; rw [e1]; omega

/-- The second bias as a `[1, 1]` array, staged whole. -/
theorem iblk5_apply (c : Dev nD) (t : Fin cfg0.N) :
    (iblk m c 5 t : Vec Ideal S1x1 .f32) (ix2 (0 : Fin 1) (0 : Fin 1))
      = (m ((c : Thread nD τ).loc main_arg4) : S1.Idx → EReal) (ix1 (0 : Fin 1)) := by
  obtain ⟨-, -, -, -, -, -, -, -, -, -, e0, e1, -⟩ := idx_facts t
  unfold iblk
  rw [View.read_apply]
  show (V m c main_call0_v2 : S1x1.Idx → EReal) _ = _
  rw [V_v2]
  refine Eq.trans (congrArg _ ?_) (shapeCast_a_1a_apply _ shapeCasts_S1_S1x1 (0 : Fin 1) (0 : Fin 1))
  funext a
  apply Fin.ext
  match a with
  | ⟨0, _⟩ => show win0_5.index t (0 : Fin 2) * 1 + 1 * 0 = 0; rw [e0]
  | ⟨1, _⟩ => show win0_5.index t (1 : Fin 2) * 1 + 1 * 0 = 0; rw [e1]

end Cert.KernelIdeal.HandValue

end
-- ==== Proof.IdealValue.lean ====
import proofs.«107998_g43258910606027_cont_8to1_b_1695_36_alg».proof.Proof.IdealBlocks

/-!
# The kernel's value: the program's result is the specification's function of its arguments

The body leaves in the output slab two rows: row 0 from the first row block, row 1 from the second; each entry is
the specification's value of one row of its block. Read through the blocks, point `t` therefore writes back block `t`
of one function of the launch arrays — entry `(p, k, r)` of the `[4, 2, 2048]` result is the value of input row
`(2p + k)·2048 + r` — and the four blocks cover the result, so the pallas_call leaves that function in its result
array. The last reshape is row-major: output row `n` reads entry `(n / 4096, (n / 2048) % 2, n % 2048)`, which is the
value of input row `n`.
-/

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The slab after the body, at an index -/

theorem hz2 : (![0, 0] : Fin 2 → Nat) = fun _ => 0 := funext fun a => by fin_cases a <;> rfl

/-- Row 0 of the slab holds, at `r`, the specification's value of row `r` of the first row block: the later store lies
    in row 1 and misses it. -/
theorem outSlab_at0 (xa xb : Vec Ideal S2048x128 .f32) (w1 : Vec Ideal S128x128 .f32) (b1 w2 : Vec Ideal S1x128 .f32)
    (b2 : Vec Ideal S1x1 .f32) (r : Fin 2048) :
    outSlab xa xb w1 b1 w2 b2 (ix3 (0 : Fin 1) (0 : Fin 2) r)
      = Cert.Mlp.row (fun d => xa (ix2 r d)) (fun d j => w1 (ix2 d j)) (fun j => b1 (ix2 (0 : Fin 1) j))
          (fun j => w2 (ix2 (0 : Fin 1) j)) (b2 (ix2 (0 : Fin 1) (0 : Fin 1))) := by
  unfold outSlab
  refine (View.canon_cons_of_not_mem _ _ ?_).trans ?_
  · rw [Rect.mem_set_unit]
    intro h
    exact absurd (show (1 : ℕ) ≤ 0 from (h (1 : Fin 3)).1) (by omega)
  have he : ix3 (0 : Fin 1) (0 : Fin 2) r = rO0.emb (ix3 (0 : Fin 1) (0 : Fin 1) r) := by
    funext a; apply Fin.ext
    match a with
    | ⟨0, _⟩ => rfl
    | ⟨1, _⟩ => rfl
    | ⟨2, _⟩ => show r.val = 0 + 1 * r.val; omega
  refine ((congrArg _ he).trans (View.canon_cons_emb rO0 _ _ (ix3 (0 : Fin 1) (0 : Fin 1) r))).trans ?_
  simp only [View.ld_unit_zero (S := S2048x128) hz2, View.ld_unit_zero (S := S128x128) hz2,
    View.ld_unit_zero (S := S1x128) hz2, View.ld_unit_zero (S := S1x1) hz2]
  exact Cert.Mlp.Ker.pay5_at w1 b1 w2 b2 xa r

/-- Row 1 of the slab holds, at `r`, the value of row `r` of the second row block: the later store. -/
theorem outSlab_at1 (xa xb : Vec Ideal S2048x128 .f32) (w1 : Vec Ideal S128x128 .f32) (b1 w2 : Vec Ideal S1x128 .f32)
    (b2 : Vec Ideal S1x1 .f32) (r : Fin 2048) :
    outSlab xa xb w1 b1 w2 b2 (ix3 (0 : Fin 1) (1 : Fin 2) r)
      = Cert.Mlp.row (fun d => xb (ix2 r d)) (fun d j => w1 (ix2 d j)) (fun j => b1 (ix2 (0 : Fin 1) j))
          (fun j => w2 (ix2 (0 : Fin 1) j)) (b2 (ix2 (0 : Fin 1) (0 : Fin 1))) := by
  unfold outSlab
  have he : ix3 (0 : Fin 1) (1 : Fin 2) r = rO1.emb (ix3 (0 : Fin 1) (0 : Fin 1) r) := by
    funext a; apply Fin.ext
    match a with
    | ⟨0, _⟩ => rfl
    | ⟨1, _⟩ => rfl
    | ⟨2, _⟩ => show r.val = 0 + 1 * r.val; omega
  refine ((congrArg _ he).trans (View.canon_cons_emb rO1 _ _ (ix3 (0 : Fin 1) (0 : Fin 1) r))).trans ?_
  simp only [View.ld_unit_zero (S := S2048x128) hz2, View.ld_unit_zero (S := S128x128) hz2,
    View.ld_unit_zero (S := S1x128) hz2, View.ld_unit_zero (S := S1x1) hz2]
  exact Cert.Mlp.Ker.pay1_at w1 b1 w2 b2 xb r

/-! ## What the pallas_call leaves in its result array -/

/-- The specification's value of input row `n`, over the arrays as launched. -/
def specRow (c : Dev nD) (n : Fin 16384) : EReal :=
  Cert.Mlp.row (fun d => (m ((c : Thread nD τ).loc main_arg0) : S16384x128.Idx → EReal) (ix2 n d))
    (fun d j => (m ((c : Thread nD τ).loc main_arg1) : S128x128.Idx → EReal) (ix2 d j))
    (fun j => (m ((c : Thread nD τ).loc main_arg2) : S128.Idx → EReal) (ix1 j))
    (fun j => (m ((c : Thread nD τ).loc main_arg3) : S128x1.Idx → EReal) (ix2 j (0 : Fin 1)))
    ((m ((c : Thread nD τ).loc main_arg4) : S1.Idx → EReal) (ix1 (0 : Fin 1)))

/-- The `[4, 2, 2048]` result as one function of the launch arrays: entry `(p, k, r)` is the value of input row
    `(2p + k)·2048 + r`. -/
def G6 (c : Dev nD) : S4x2x2048.Idx → EReal := fun j =>
  specRow m c ⟨((j 0).val * 2 + (j 1).val) * 2048 + (j 2).val, by
    have h0 : (j 0).val < 4 := (j 0).isLt
    have h1 : (j 1).val < 2 := (j 1).isLt
    have h2 : (j 2).val < 2048 := (j 2).isLt
    omega⟩

/-- The specification's value from the staged blocks: the weights' and biases' blocks are the launch arrays (the
    reshaped ones read at the matching entries), and the row block's row `r` is the matrix's row `n`. -/
theorem row_of_blocks (c : Dev nD) (t : Fin cfg0.N) (xblk : Vec Ideal S2048x128 .f32) (r : Fin 2048) (n : Fin 16384)
    (hx : ∀ d : Fin 128, xblk (ix2 r d) = (m ((c : Thread nD τ).loc main_arg0) : S16384x128.Idx → EReal) (ix2 n d)) :
    Cert.Mlp.row (fun d => xblk (ix2 r d)) (fun d j => (iblk m c 2 t : Vec Ideal S128x128 .f32) (ix2 d j))
      (fun j => (iblk m c 3 t : Vec Ideal S1x128 .f32) (ix2 (0 : Fin 1) j))
      (fun j => (iblk m c 4 t : Vec Ideal S1x128 .f32) (ix2 (0 : Fin 1) j))
      ((iblk m c 5 t : Vec Ideal S1x1 .f32) (ix2 (0 : Fin 1) (0 : Fin 1))) = specRow m c n := by
  unfold specRow
  exact congr (congr (congr (congr (congrArg Cert.Mlp.row (funext hx))
    (funext fun d => funext fun j => iblk2_apply m c t d j)) (funext fun j => iblk3_apply m c t j))
    (funext fun j => iblk4_apply m c t j)) (iblk5_apply m c t)

/-- The result function under point `t`'s block: slab row `k`, entry `r`, is input row `(2t + k)·2048 + r`. -/
theorem G6_emb (c : Dev nD) (t : Fin cfg0.N) (k : Fin 2) (r : Fin 2048) (n : Fin 16384)
    (hn : n.val = (2 * t.val + k.val) * 2048 + r.val) :
    G6 m c (((cfg0.win 6).blk t).view.emb (ix3 (0 : Fin 1) k r)) = specRow m c n := by
  obtain ⟨-, -, -, -, -, -, -, -, -, -, -, -, e0, e1, e2⟩ := idx_facts t
  unfold G6
  refine congrArg (specRow m c) (Fin.ext ?_)
  show ((win0_6.index t (0 : Fin 3) * 1 + 1 * 0) * 2 + (win0_6.index t (1 : Fin 3) * 2 + 1 * k.val)) * 2048
    + (win0_6.index t (2 : Fin 3) * 2048 + 1 * r.val) = n.val
  rw [e0, e1, e2, hn]; omega

/-- What point `t` writes back is block `t` of the result function. -/
theorem flushed_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  have hN : cfg0.N = 4 := N_0
  have ht : t.val < 4 := by have h := t.isLt; omega
  refine funext fun (y : S1x2x2048.Idx) => ?_
  obtain ⟨a, k, r, rfl⟩ : ∃ (a : Fin 1) (k : Fin 2) (r : Fin 2048), y = ix3 a k r := ⟨y 0, y 1, y 2, eq_ix3 y⟩
  obtain rfl : a = 0 := Subsingleton.elim _ _
  have hr : r.val < 2048 := r.isLt
  show outSlab (iblk m c 0 t) (iblk m c 1 t) (iblk m c 2 t) (iblk m c 3 t) (iblk m c 4 t) (iblk m c 5 t) (ix3 (0 : Fin 1) k r)
    = G6 m c (((cfg0.win 6).blk t).view.emb (ix3 (0 : Fin 1) k r))
  match k with
  | ⟨0, _⟩ =>
    refine (outSlab_at0 (iblk m c 0 t) (iblk m c 1 t) (iblk m c 2 t) (iblk m c 3 t) (iblk m c 4 t) (iblk m c 5 t) r).trans ?_
    refine Eq.trans ?_ (G6_emb m c t (0 : Fin 2) r ⟨2 * t.val * 2048 + r.val, by omega⟩
      (by show 2 * t.val * 2048 + r.val = (2 * t.val + 0) * 2048 + r.val; omega)).symm
    exact row_of_blocks m c t (iblk m c 0 t) r ⟨2 * t.val * 2048 + r.val, by omega⟩
      (fun d => iblk0_apply m c t r d ⟨2 * t.val * 2048 + r.val, by omega⟩ rfl)
  | ⟨1, _⟩ =>
    refine (outSlab_at1 (iblk m c 0 t) (iblk m c 1 t) (iblk m c 2 t) (iblk m c 3 t) (iblk m c 4 t) (iblk m c 5 t) r).trans ?_
    refine Eq.trans ?_ (G6_emb m c t (1 : Fin 2) r ⟨(2 * t.val + 1) * 2048 + r.val, by omega⟩
      (by show (2 * t.val + 1) * 2048 + r.val = (2 * t.val + 1) * 2048 + r.val; rfl)).symm
    exact row_of_blocks m c t (iblk m c 1 t) r ⟨(2 * t.val + 1) * 2048 + r.val, by omega⟩
      (fun d => iblk1_apply m c t r d ⟨(2 * t.val + 1) * 2048 + r.val, by omega⟩ rfl)

/-- Every entry `(p, k, r)` of the result lies in point `p`'s block. -/
theorem cover (i : S4x2x2048.Idx) :
    ∃ t : Fin cfg0.N, (cfg0.win 6).flush t = true ∧ i ∈ ((cfg0.win 6).blk t).view.set := by
  have h0 : (i 0).val < 4 := (i 0).isLt
  have h1 : (i 1).val < 2 := (i 1).isLt
  have h2 : (i 2).val < 2048 := (i 2).isLt
  have hN : cfg0.N = 4 := N_0
  obtain ⟨t, ht⟩ : ∃ t : Fin cfg0.N, t.val = (i 0).val := ⟨⟨(i 0).val, by omega⟩, rfl⟩
  obtain ⟨-, -, -, -, -, -, -, -, -, -, -, -, e0, e1, e2⟩ := idx_facts t
  refine ⟨t, flush0_6 t, ?_⟩
  show i ∈ ((View.whole main_call0_v3).slice (win0_6.rect t)).set
  rw [View.set_slice_whole, Rect.mem_set_unit]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 2 ≤ (i 1).val ∧ (i 1).val < win0_6.index t (1 : Fin 3) * 2 + 2
    omega
  | ⟨2, _⟩ =>
    show win0_6.index t (2 : Fin 3) * 2048 ≤ (i 2).val ∧ (i 2).val < win0_6.index t (2 : Fin 3) * 2048 + 2048
    omega

/-- So the pallas_call leaves the result function in its result array. -/
theorem slabs_eq (c : Dev nD) : (slabs m c : S4x2x2048.Idx → EReal) = G6 m c :=
  (dats m 0 c).arrAt_eq_of_cover 6 (G6 m c) (fun t _ => flushed_eq m c t) cover

/-! ## The last reshape, and the program's result -/

/-- The program's result array is the row-major reshape of what the pallas_call left. -/
theorem W3_main_v0 (c : Dev nD) : (W3 m c main_v0 : S16384x1.Idx → EReal)
    = shapeCast S16384x1 (slabs m c : S4x2x2048.Idx → EReal) shapeCasts_S4x2x2048_S16384x1 := by
  have e : (W3 m c main_v0 : S16384x1.Idx → EReal)
      = shapeCast S16384x1 (W2 m c main_call0_v3 : S4x2x2048.Idx → EReal) shapeCasts_S4x2x2048_S16384x1 := by
    dsimp only [W3, hostOps1]; after_results; rfl
  exact e.trans (congrArg (fun X : S4x2x2048.Idx → EReal => shapeCast S16384x1 X shapeCasts_S4x2x2048_S16384x1)
    (Function.update_self _ _ _))

/-- The program's result, index by index, is the specification's function of the arrays as launched: output row `n`
    sits at entry `(n / 4096, (n / 2048) % 2, n % 2048)` of the pallas_call's result, which is the value of input row `n`. -/
theorem kernel_value (m : (ℓ : Loc nD τ sig) → Buf (Elt Ideal) ℓ) (c : Dev nD) :
    Cert.KernelIdeal.Hand.W3 (F := Ideal) m c main_v0
      = Cert.Mlp.out (m ((c : Thread nD τ).loc main_arg0)) (m ((c : Thread nD τ).loc main_arg1))
          (m ((c : Thread nD τ).loc main_arg2)) (m ((c : Thread nD τ).loc main_arg3)) (m ((c : Thread nD τ).loc main_arg4)) := by
  refine (W3_main_v0 m c).trans ?_
  rw [slabs_eq]
  funext i
  obtain ⟨n, z, rfl⟩ : ∃ (n : Fin 16384) (z : Fin 1), i = ix2 n z := ⟨i 0, i 1, eq_ix2 i⟩
  have hn : n.val < 16384 := n.isLt
  have hz : z.val = 0 := by omega
  refine (shapeCast_apply (G6 m c) shapeCasts_S4x2x2048_S16384x1 (ix2 n z)
    (ix3 (⟨n.val / 4096, by omega⟩ : Fin 4) (⟨(n.val / 2048) % 2, by omega⟩ : Fin 2) (⟨n.val % 2048, by omega⟩ : Fin 2048)) ?_).trans ?_
  · rw [Shape.rowMajor_val_three, Shape.rowMajor_val_two]
    show ((n.val / 4096) * 2 + (n.val / 2048) % 2) * 2048 + n.val % 2048 = n.val * 1 + z.val
    omega
  · unfold G6
    refine (congrArg (specRow m c) (Fin.ext ?_ : _ = n)).trans ?_
    · show ((n.val / 4096) * 2 + (n.val / 2048) % 2) * 2048 + n.val % 2048 = n.val
      omega
    · unfold specRow Cert.Mlp.out
      rfl

end Cert.KernelIdeal.HandValue

end
-- ==== Proof.RefSpec.lean ====
/- The reference program's result is the specification: each of its operations read at an index, the composed index
   functions identified with indices built from coordinates. -/
import proofs.«107998_g43258910606027_cont_8to1_b_1695_36_alg».proof.Proof.Spec
import proofs.«107998_g43258910606027_cont_8to1_b_1695_36_alg».proof.Proof.Gen.ReferenceIdeal.Read

noncomputable section

namespace Cert.Mlp.Ref

open Idealize.ShloMosaic Idealize.ShloMosaic.ValueIdx Cert.ReferenceIdeal Cert.ReferenceIdeal.Read
open scoped BigOperators

/-- The reference's result, read at row `i`, is `1 / (1 + e^(-z))` of that row's logit: the two contractions read
    `x` at `(i, d)`, `W1` at `(d, j)`, `W2` at `(j, 0)`, and the two biases are broadcast along the rows. -/
theorem ref_eq (x0 : (⟨Cert.ReferenceIdeal.S16384x128, .f32⟩ : BufTy).Contents (Elt Ideal))
    (x1 : (⟨Cert.ReferenceIdeal.S128x128, .f32⟩ : BufTy).Contents (Elt Ideal))
    (x2 : (⟨Cert.ReferenceIdeal.S128, .f32⟩ : BufTy).Contents (Elt Ideal))
    (x3 : (⟨Cert.ReferenceIdeal.S128x1, .f32⟩ : BufTy).Contents (Elt Ideal))
    (x4 : (⟨Cert.ReferenceIdeal.S1, .f32⟩ : BufTy).Contents (Elt Ideal)) :
    Cert.ReferenceIdeal.Read.val_main_v14 (F := Ideal) x0 x1 x2 x3 x4 = Cert.Mlp.out x0 x1 x2 x3 x4 := by
  funext i
  rw [val_main_v14_apply, val_main_v13_apply, val_main_cst_0_apply, val_main_v12_apply, val_main_v11_apply,
    val_main_cst_apply, val_main_v10_apply, val_main_v9_apply, val_main_v8_apply, val_main_v5_apply,
    val_main_v7_apply, val_main_v6_apply]
  simp only [val_main_v4_apply, val_main_v3_apply, val_main_v0_apply, val_main_v2_apply, val_main_v1_apply,
    val_main_call0_v0_apply, val_main_call0_cst_apply, Ideal.hostDivf_def, Ideal.ofBits_def, Ideal.addf_def,
    Ideal.hostUnary_exp_def, Ideal.hostNegf_def, Ideal.negf_def, Ideal.maximumf_def, Ideal.ofBits_zero_f32]
  have hi1 : (i 1).val = 0 := by have h : (i 1).val < 1 := (i 1).isLt; omega
  have e1 : ∀ k k' : Fin 128, lidx_main_v0 (lidx_main_v5 i k) k' = ix2 (i 0) k' := fun k k' =>
    funext fun a => Fin.ext (by match a with | ⟨0, _⟩ => rfl | ⟨1, _⟩ => rfl)
  have e2 : ∀ k k' : Fin 128, ridx_main_v0 (lidx_main_v5 i k) k' = ix2 k' k := fun k k' =>
    funext fun a => Fin.ext (by match a with | ⟨0, _⟩ => rfl | ⟨1, _⟩ => rfl)
  have e3 : ∀ k : Fin 128, idx_main_v1 (idx_main_v2 (lidx_main_v5 i k)) = ix1 k := fun k =>
    funext fun a => Fin.ext (by match a with | ⟨0, _⟩ => rfl)
  have e4 : ∀ k : Fin 128, ridx_main_v5 i k = ix2 k (0 : Fin 1) := fun k =>
    funext fun a => Fin.ext (by match a with | ⟨0, _⟩ => rfl | ⟨1, _⟩ => exact hi1)
  have e5 : idx_main_v6 (idx_main_v7 i) = ix1 (0 : Fin 1) :=
    funext fun a => Fin.ext (by match a with | ⟨0, _⟩ => rfl)
  simp only [e1, e2, e3, e4, e5]
  rfl

end Cert.Mlp.Ref

end
-- ==== Proof.lean ====
/-
  The certificate of a two-layer perceptron head, `sigmoid(relu(x·W1 + b1)·W2 + b2)` on f32[16384, 128] inputs.

  The kernel is ONE pallas_call on a grid of four points whose two row windows read one and the same input matrix
  (row blocks `2t` and `2t + 1` of 2048 rows each); the body computes for each row block the hidden layer by a matrix
  product into a zero accumulator, the bias and the maximum with zero, the logit by a second matrix product against
  the second weight as a row, and `½·tanh(½·z) + ½`; the `[4, 2, 2048]` result is reshaped to `[16384, 1]`. The
  reference computes `1 / (1 + exp(−z))` of the same logit on the host.

  * The three frames: the kernel's two programs run through the library's theorem for a program that is a list of
    items (three reshapes, the pallas_call, one reshape), the input matrix's ownership cut into two halves for the
    two windows that read it; the reference's frame is its generated run with the result dropped.
  * The idealization rewrote nothing, so there is nothing to preserve.
  * At the ideal instance both programs end with the one function `Cert.Mlp.out` of the argument arrays: on every
    extended real `½·tanh(½·z) + ½ = 1 / (1 + exp(−z))` (at `+∞` both are `1`, at `−∞` both are `0`), a product of
    extended reals commutes, and both matrix products are the same finite sums. No finiteness of the inputs is used.
-/
import proofs.«107998_g43258910606027_cont_8to1_b_1695_36_alg».proof.Defs
import proofs.«107998_g43258910606027_cont_8to1_b_1695_36_alg».proof.Proof.Gen.Kernel
import proofs.«107998_g43258910606027_cont_8to1_b_1695_36_alg».proof.Proof.Gen.KernelIdeal
import proofs.«107998_g43258910606027_cont_8to1_b_1695_36_alg».proof.Proof.Gen.ReferenceIdeal
import proofs.«107998_g43258910606027_cont_8to1_b_1695_36_alg».proof.Proof.Gen.Pre_finite_inputs
import proofs.«107998_g43258910606027_cont_8to1_b_1695_36_alg».proof.Proof.Gen.ReferenceIdeal.Run
import proofs.«107998_g43258910606027_cont_8to1_b_1695_36_alg».proof.Proof.Gen.ReferenceIdeal.Read
import proofs.«107998_g43258910606027_cont_8to1_b_1695_36_alg».proof.Proof.KernelRun
import proofs.«107998_g43258910606027_cont_8to1_b_1695_36_alg».proof.Proof.IdealRun
import proofs.«107998_g43258910606027_cont_8to1_b_1695_36_alg».proof.Proof.IdealValue
import proofs.«107998_g43258910606027_cont_8to1_b_1695_36_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its five argument arrays as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W3_arg m c Cert.Kernel.main_arg0 (by decide) (by decide) (by decide)),
     (h c _ (Cert.Kernel.Hand.mem_uc Cert.Kernel.main_arg1 (by decide))).trans (Cert.Kernel.Hand.W3_arg m c Cert.Kernel.main_arg1 (by decide) (by decide) (by decide)),
     (h c _ (Cert.Kernel.Hand.mem_uc Cert.Kernel.main_arg2 (by decide))).trans (Cert.Kernel.Hand.W3_arg m c Cert.Kernel.main_arg2 (by decide) (by decide) (by decide)),
     (h c _ (Cert.Kernel.Hand.mem_uc Cert.Kernel.main_arg3 (by decide))).trans (Cert.Kernel.Hand.W3_arg m c Cert.Kernel.main_arg3 (by decide) (by decide) (by decide)),
     (h c _ (Cert.Kernel.Hand.mem_uc Cert.Kernel.main_arg4 (by decide))).trans (Cert.Kernel.Hand.W3_arg m c Cert.Kernel.main_arg4 (by decide) (by decide) (by decide))⟩)
    (Cert.Kernel.Hand.run_main (F := Bits) m ρ)

/-- The idealized kernel's run: the result array at the specification's function, the arguments as launched. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0)
          = Cert.Mlp.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
              (m ((c.tc : Thread Cert.KernelIdeal.nD Cert.KernelIdeal.τ).loc Cert.KernelIdeal.main_arg2)) (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun r h c =>
    ⟨(h c _ (Cert.KernelIdeal.Hand.mem_uc Cert.KernelIdeal.main_v0 (by decide))).trans (Cert.KernelIdeal.HandValue.kernel_value m c),
     (h c _ (Cert.KernelIdeal.Hand.mem_uc Cert.KernelIdeal.main_arg0 (by decide))).trans (Cert.KernelIdeal.Hand.W3_arg m c Cert.KernelIdeal.main_arg0 (by decide) (by decide) (by decide)),
     (h c _ (Cert.KernelIdeal.Hand.mem_uc Cert.KernelIdeal.main_arg1 (by decide))).trans (Cert.KernelIdeal.Hand.W3_arg m c Cert.KernelIdeal.main_arg1 (by decide) (by decide) (by decide)),
     (h c _ (Cert.KernelIdeal.Hand.mem_uc Cert.KernelIdeal.main_arg2 (by decide))).trans (Cert.KernelIdeal.Hand.W3_arg m c Cert.KernelIdeal.main_arg2 (by decide) (by decide) (by decide)),
     (h c _ (Cert.KernelIdeal.Hand.mem_uc Cert.KernelIdeal.main_arg3 (by decide))).trans (Cert.KernelIdeal.Hand.W3_arg m c Cert.KernelIdeal.main_arg3 (by decide) (by decide) (by decide)),
     (h c _ (Cert.KernelIdeal.Hand.mem_uc Cert.KernelIdeal.main_arg4 (by decide))).trans (Cert.KernelIdeal.Hand.W3_arg m c Cert.KernelIdeal.main_arg4 (by decide) (by decide) (by decide))⟩)
    (Cert.KernelIdeal.Hand.run_main (F := Ideal) m ρ)

/-- The idealized kernel runs and leaves its five argument arrays as launched. -/
theorem frame_ki : Cert.frame_KernelIdeal := fun m ρ _ =>
  (θ_run Cert.KernelIdeal.defs _ _).mono (fun _ h c => (h c).2) (run_ki m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification's function of arguments that agree. -/
theorem algebraic : Cert.algebraic_KernelIdeal_ReferenceIdeal := by
  intro m ρ m' ρ' _ hagree
  refine ⟨_, run_ki m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Mlp.Ref.ref_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
